-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S1x128 : Shape := ⟨2, ![1, 128]⟩
abbrev S5000x128 : Shape := ⟨2, ![5000, 128]⟩
abbrev S1600000x1 : Shape := ⟨2, ![1600000, 1]⟩
abbrev S1600000x128 : Shape := ⟨2, ![1600000, 128]⟩
abbrev S100000 : Shape := ⟨1, ![100000]⟩
abbrev S1x1 : Shape := ⟨2, ![1, 1]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 113
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1x1, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S1600000x1, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1x1, .f32⟩
  | .hbm, ⟨94, _⟩ => ⟨S100000x128, .f32⟩
  | .hbm, ⟨95, _⟩ => ⟨S1x64, .f32⟩
  | .hbm, ⟨96, _⟩ => ⟨S100000x64, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x1, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x1, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_cst_18 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_19 : Ref sig .tc := ⟨.hbm, 97, rfl⟩
abbrev main_v67 : Ref sig .tc := ⟨.hbm, 98, rfl⟩
abbrev main_v68 : Ref sig .tc := ⟨.hbm, 99, rfl⟩
abbrev main_c_20 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_21 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  reducesTo_S100000x128_S100000_d1 : S100000x128.ReducesTo [1] S100000
  reducesTo_S100000_S_d0 : S100000.ReducesTo [0] S_
  shapeCasts_S_S1x1 : S_.ShapeCasts S1x1
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v64) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S100000 : Shape := ⟨1, ![100000]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S1x128, .f32⟩
  | 15 => ⟨S100000x128, .f32⟩
  | 16 => ⟨S100000x128, .f32⟩
  | 17 => ⟨S1600000x1, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S1600000x128, .f32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S100000x128, .f32⟩
  | 40 => ⟨S100000x128, .f32⟩
  | 41 => ⟨S100000x128, .f32⟩
  | 42 => ⟨S_, .f32⟩
  | 43 => ⟨S100000, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S100000x128, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S100000, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S100000x128, .f32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S100000x64, .f32⟩
  | 110 => ⟨S1x64, .f32⟩
  | 111 => ⟨S100000x64, .f32⟩
  | 112 => ⟨S100000x64, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_cst : Ref sig .tc := ⟨.hbm, 56, rfl⟩
abbrev main_call0_v0 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_cst_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call1_cst : Ref sig .tc := ⟨.hbm, 105, rfl⟩
abbrev main_call1_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_19 : Ref sig .tc := ⟨.hbm, 114, rfl⟩
abbrev main_v80 : Ref sig .tc := ⟨.hbm, 115, rfl⟩
abbrev main_v81 : Ref sig .tc := ⟨.hbm, 116, rfl⟩
abbrev main_c_20 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S1x128 : S_.BroadcastsInDim S1x128 (![] : Fin 0 → Fin S1x128.rank)
  reducesTo_S100000x128_S100000_d1 : S100000x128.ReducesTo [1] S100000
  reducesTo_S100000_S_d0 : S100000.ReducesTo [0] S_
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run with its result named.

  The program is five kernel launches among six stretches of host operations. Its generated frame certificate follows
  the buffer contents through that chain as a fold from the launch memory, and proves that every execution ends with
  every unscoped buffer at the fold's last valuation. Here the same launch of the same segments is read once more for
  the result buffer as well: every weakly fair execution terminates, the result array holds the fold's last valuation
  at the result buffer, and the arguments are unchanged.
-/
import proofs.«174604_j41987600285801_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    valuation of the fold through the program's segments, and each argument array ends as launched. -/
theorem run_result : θ_run defs (onTc (τ := τ) (main (F := F))) ⟨m, fun _ => 0, ρ⟩ (fun r => ∀ c : Dev nD,
      r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Hand

end
-- ==== Proof.Carry.lean ====
/-
  Buffers the program computes once, before its first launch, or never writes: what they hold at every later point.

  The program's memory is followed as a fold: each stretch of host operations rewrites its result buffers, each launch
  rewrites its output array, and every other buffer keeps its contents. The two index vectors sliced from the edge
  table, the array of zeros, the bias row of the first layer and the arguments themselves are written before the first
  launch or not at all; here each is walked forward through the fold to the points where a later stage reads it.
-/
import proofs.«174604_j41987600285801_1_alg».proof.Proof.Gen.KernelIdeal.Frame
import proofs.«174604_j41987600285801_1_alg».proof.Proof.Gen.ReferenceIdeal.Read

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After the first stretch of host operations -/

theorem at1_main_v1 : W1 m ρ c (Proc.devRef .tc main_v1) = Cert.ReferenceIdeal.Read.val_main_v1 (F := Ideal) (m ((c : Thread nD τ).loc main_arg1)) := by
  dsimp only [W1, hostOps0]
  after_results_simp <;> rfl

theorem at1_main_v3 : W1 m ρ c (Proc.devRef .tc main_v3) = Cert.ReferenceIdeal.Read.val_main_v3 (F := Ideal) (m ((c : Thread nD τ).loc main_arg1)) := by
  dsimp only [W1, hostOps0]
  after_results_simp <;> rfl

theorem at1_main_arg2 : W1 m ρ c (Proc.devRef .tc main_arg2) = m ((c : Thread nD τ).loc main_arg2) := by
  dsimp only [W1, hostOps0]
  after_results_simp <;> rfl

theorem at1_main_v4 : W1 m ρ c (Proc.devRef .tc main_v4) = Cert.ReferenceIdeal.Read.val_main_v38 (F := Ideal) := by
  dsimp only [W1, hostOps0]
  after_results_simp <;> rfl

theorem at1_main_arg5 : W1 m ρ c (Proc.devRef .tc main_arg5) = m ((c : Thread nD τ).loc main_arg5) := by
  dsimp only [W1, hostOps0]
  after_results_simp <;> rfl

theorem at1_main_arg6 : W1 m ρ c (Proc.devRef .tc main_arg6) = m ((c : Thread nD τ).loc main_arg6) := by
  dsimp only [W1, hostOps0]
  after_results_simp <;> rfl

theorem at1_main_arg7 : W1 m ρ c (Proc.devRef .tc main_arg7) = m ((c : Thread nD τ).loc main_arg7) := by
  dsimp only [W1, hostOps0]
  after_results_simp <;> rfl

theorem at1_main_arg8 : W1 m ρ c (Proc.devRef .tc main_arg8) = m ((c : Thread nD τ).loc main_arg8) := by
  dsimp only [W1, hostOps0]
  after_results_simp <;> rfl

theorem at1_main_arg0 : W1 m ρ c (Proc.devRef .tc main_arg0) = m ((c : Thread nD τ).loc main_arg0) := by
  dsimp only [W1, hostOps0]
  after_results_simp <;> rfl

theorem at1_main_arg3 : W1 m ρ c (Proc.devRef .tc main_arg3) = m ((c : Thread nD τ).loc main_arg3) := by
  dsimp only [W1, hostOps0]
  after_results_simp <;> rfl

theorem at1_main_v5 : W1 m ρ c (Proc.devRef .tc main_v5) = shapeCast S1x128 (m ((c : Thread nD τ).loc main_arg4)) shapeCasts_S128_S1x128 := by
  dsimp only [W1, hostOps0]
  after_results_simp <;> rfl

/-! ## Carried through the later stretches and launches -/

theorem keep2_main_v1 : W2 m ρ c (Proc.devRef .tc main_v1) = W1 m ρ c (Proc.devRef .tc main_v1) :=
  W2_of_ne m ρ c main_v1 (by decide)
theorem at2_main_v1 : W2 m ρ c (Proc.devRef .tc main_v1) = Cert.ReferenceIdeal.Read.val_main_v1 (F := Ideal) (m ((c : Thread nD τ).loc main_arg1)) :=
  (keep2_main_v1 m ρ c).trans (at1_main_v1 m ρ c)

theorem keep3_main_v1 : W3 m ρ c (Proc.devRef .tc main_v1) = W2 m ρ c (Proc.devRef .tc main_v1) := by
  dsimp only [W3, hostOps1]
  after_results_simp
theorem at3_main_v1 : W3 m ρ c (Proc.devRef .tc main_v1) = Cert.ReferenceIdeal.Read.val_main_v1 (F := Ideal) (m ((c : Thread nD τ).loc main_arg1)) :=
  (keep3_main_v1 m ρ c).trans (at2_main_v1 m ρ c)

theorem keep4_main_v1 : W4 m ρ c (Proc.devRef .tc main_v1) = W3 m ρ c (Proc.devRef .tc main_v1) :=
  W4_of_ne m ρ c main_v1 (by decide)
theorem at4_main_v1 : W4 m ρ c (Proc.devRef .tc main_v1) = Cert.ReferenceIdeal.Read.val_main_v1 (F := Ideal) (m ((c : Thread nD τ).loc main_arg1)) :=
  (keep4_main_v1 m ρ c).trans (at3_main_v1 m ρ c)

theorem keep5_main_v1 : W5 m ρ c (Proc.devRef .tc main_v1) = W4 m ρ c (Proc.devRef .tc main_v1) := by
  dsimp only [W5, hostOps2]
  after_results_simp
theorem at5_main_v1 : W5 m ρ c (Proc.devRef .tc main_v1) = Cert.ReferenceIdeal.Read.val_main_v1 (F := Ideal) (m ((c : Thread nD τ).loc main_arg1)) :=
  (keep5_main_v1 m ρ c).trans (at4_main_v1 m ρ c)

theorem keep6_main_v1 : W6 m ρ c (Proc.devRef .tc main_v1) = W5 m ρ c (Proc.devRef .tc main_v1) :=
  W6_of_ne m ρ c main_v1 (by decide)
theorem at6_main_v1 : W6 m ρ c (Proc.devRef .tc main_v1) = Cert.ReferenceIdeal.Read.val_main_v1 (F := Ideal) (m ((c : Thread nD τ).loc main_arg1)) :=
  (keep6_main_v1 m ρ c).trans (at5_main_v1 m ρ c)

theorem keep7_main_v1 : W7 m ρ c (Proc.devRef .tc main_v1) = W6 m ρ c (Proc.devRef .tc main_v1) := by
  dsimp only [W7, hostOps3]
  after_results_simp
theorem at7_main_v1 : W7 m ρ c (Proc.devRef .tc main_v1) = Cert.ReferenceIdeal.Read.val_main_v1 (F := Ideal) (m ((c : Thread nD τ).loc main_arg1)) :=
  (keep7_main_v1 m ρ c).trans (at6_main_v1 m ρ c)

theorem keep8_main_v1 : W8 m ρ c (Proc.devRef .tc main_v1) = W7 m ρ c (Proc.devRef .tc main_v1) :=
  W8_of_ne m ρ c main_v1 (by decide)
theorem at8_main_v1 : W8 m ρ c (Proc.devRef .tc main_v1) = Cert.ReferenceIdeal.Read.val_main_v1 (F := Ideal) (m ((c : Thread nD τ).loc main_arg1)) :=
  (keep8_main_v1 m ρ c).trans (at7_main_v1 m ρ c)

theorem keep9_main_v1 : W9 m ρ c (Proc.devRef .tc main_v1) = W8 m ρ c (Proc.devRef .tc main_v1) := by
  dsimp only [W9, hostOps4]
  after_results_simp
theorem at9_main_v1 : W9 m ρ c (Proc.devRef .tc main_v1) = Cert.ReferenceIdeal.Read.val_main_v1 (F := Ideal) (m ((c : Thread nD τ).loc main_arg1)) :=
  (keep9_main_v1 m ρ c).trans (at8_main_v1 m ρ c)

theorem keep10_main_v1 : W10 m ρ c (Proc.devRef .tc main_v1) = W9 m ρ c (Proc.devRef .tc main_v1) :=
  W10_of_ne m ρ c main_v1 (by decide)
theorem at10_main_v1 : W10 m ρ c (Proc.devRef .tc main_v1) = Cert.ReferenceIdeal.Read.val_main_v1 (F := Ideal) (m ((c : Thread nD τ).loc main_arg1)) :=
  (keep10_main_v1 m ρ c).trans (at9_main_v1 m ρ c)

theorem keep2_main_v3 : W2 m ρ c (Proc.devRef .tc main_v3) = W1 m ρ c (Proc.devRef .tc main_v3) :=
  W2_of_ne m ρ c main_v3 (by decide)
theorem at2_main_v3 : W2 m ρ c (Proc.devRef .tc main_v3) = Cert.ReferenceIdeal.Read.val_main_v3 (F := Ideal) (m ((c : Thread nD τ).loc main_arg1)) :=
  (keep2_main_v3 m ρ c).trans (at1_main_v3 m ρ c)

theorem keep3_main_v3 : W3 m ρ c (Proc.devRef .tc main_v3) = W2 m ρ c (Proc.devRef .tc main_v3) := by
  dsimp only [W3, hostOps1]
  after_results_simp
theorem at3_main_v3 : W3 m ρ c (Proc.devRef .tc main_v3) = Cert.ReferenceIdeal.Read.val_main_v3 (F := Ideal) (m ((c : Thread nD τ).loc main_arg1)) :=
  (keep3_main_v3 m ρ c).trans (at2_main_v3 m ρ c)

theorem keep4_main_v3 : W4 m ρ c (Proc.devRef .tc main_v3) = W3 m ρ c (Proc.devRef .tc main_v3) :=
  W4_of_ne m ρ c main_v3 (by decide)
theorem at4_main_v3 : W4 m ρ c (Proc.devRef .tc main_v3) = Cert.ReferenceIdeal.Read.val_main_v3 (F := Ideal) (m ((c : Thread nD τ).loc main_arg1)) :=
  (keep4_main_v3 m ρ c).trans (at3_main_v3 m ρ c)

theorem keep5_main_v3 : W5 m ρ c (Proc.devRef .tc main_v3) = W4 m ρ c (Proc.devRef .tc main_v3) := by
  dsimp only [W5, hostOps2]
  after_results_simp
theorem at5_main_v3 : W5 m ρ c (Proc.devRef .tc main_v3) = Cert.ReferenceIdeal.Read.val_main_v3 (F := Ideal) (m ((c : Thread nD τ).loc main_arg1)) :=
  (keep5_main_v3 m ρ c).trans (at4_main_v3 m ρ c)

theorem keep6_main_v3 : W6 m ρ c (Proc.devRef .tc main_v3) = W5 m ρ c (Proc.devRef .tc main_v3) :=
  W6_of_ne m ρ c main_v3 (by decide)
theorem at6_main_v3 : W6 m ρ c (Proc.devRef .tc main_v3) = Cert.ReferenceIdeal.Read.val_main_v3 (F := Ideal) (m ((c : Thread nD τ).loc main_arg1)) :=
  (keep6_main_v3 m ρ c).trans (at5_main_v3 m ρ c)

theorem keep7_main_v3 : W7 m ρ c (Proc.devRef .tc main_v3) = W6 m ρ c (Proc.devRef .tc main_v3) := by
  dsimp only [W7, hostOps3]
  after_results_simp
theorem at7_main_v3 : W7 m ρ c (Proc.devRef .tc main_v3) = Cert.ReferenceIdeal.Read.val_main_v3 (F := Ideal) (m ((c : Thread nD τ).loc main_arg1)) :=
  (keep7_main_v3 m ρ c).trans (at6_main_v3 m ρ c)

theorem keep8_main_v3 : W8 m ρ c (Proc.devRef .tc main_v3) = W7 m ρ c (Proc.devRef .tc main_v3) :=
  W8_of_ne m ρ c main_v3 (by decide)
theorem at8_main_v3 : W8 m ρ c (Proc.devRef .tc main_v3) = Cert.ReferenceIdeal.Read.val_main_v3 (F := Ideal) (m ((c : Thread nD τ).loc main_arg1)) :=
  (keep8_main_v3 m ρ c).trans (at7_main_v3 m ρ c)

theorem keep9_main_v3 : W9 m ρ c (Proc.devRef .tc main_v3) = W8 m ρ c (Proc.devRef .tc main_v3) := by
  dsimp only [W9, hostOps4]
  after_results_simp
theorem at9_main_v3 : W9 m ρ c (Proc.devRef .tc main_v3) = Cert.ReferenceIdeal.Read.val_main_v3 (F := Ideal) (m ((c : Thread nD τ).loc main_arg1)) :=
  (keep9_main_v3 m ρ c).trans (at8_main_v3 m ρ c)

theorem keep10_main_v3 : W10 m ρ c (Proc.devRef .tc main_v3) = W9 m ρ c (Proc.devRef .tc main_v3) :=
  W10_of_ne m ρ c main_v3 (by decide)
theorem at10_main_v3 : W10 m ρ c (Proc.devRef .tc main_v3) = Cert.ReferenceIdeal.Read.val_main_v3 (F := Ideal) (m ((c : Thread nD τ).loc main_arg1)) :=
  (keep10_main_v3 m ρ c).trans (at9_main_v3 m ρ c)

theorem keep2_main_arg2 : W2 m ρ c (Proc.devRef .tc main_arg2) = W1 m ρ c (Proc.devRef .tc main_arg2) :=
  W2_of_ne m ρ c main_arg2 (by decide)
theorem at2_main_arg2 : W2 m ρ c (Proc.devRef .tc main_arg2) = m ((c : Thread nD τ).loc main_arg2) :=
  (keep2_main_arg2 m ρ c).trans (at1_main_arg2 m ρ c)

theorem keep3_main_arg2 : W3 m ρ c (Proc.devRef .tc main_arg2) = W2 m ρ c (Proc.devRef .tc main_arg2) := by
  dsimp only [W3, hostOps1]
  after_results_simp
theorem at3_main_arg2 : W3 m ρ c (Proc.devRef .tc main_arg2) = m ((c : Thread nD τ).loc main_arg2) :=
  (keep3_main_arg2 m ρ c).trans (at2_main_arg2 m ρ c)

theorem keep4_main_arg2 : W4 m ρ c (Proc.devRef .tc main_arg2) = W3 m ρ c (Proc.devRef .tc main_arg2) :=
  W4_of_ne m ρ c main_arg2 (by decide)
theorem at4_main_arg2 : W4 m ρ c (Proc.devRef .tc main_arg2) = m ((c : Thread nD τ).loc main_arg2) :=
  (keep4_main_arg2 m ρ c).trans (at3_main_arg2 m ρ c)

theorem keep5_main_arg2 : W5 m ρ c (Proc.devRef .tc main_arg2) = W4 m ρ c (Proc.devRef .tc main_arg2) := by
  dsimp only [W5, hostOps2]
  after_results_simp
theorem at5_main_arg2 : W5 m ρ c (Proc.devRef .tc main_arg2) = m ((c : Thread nD τ).loc main_arg2) :=
  (keep5_main_arg2 m ρ c).trans (at4_main_arg2 m ρ c)

theorem keep6_main_arg2 : W6 m ρ c (Proc.devRef .tc main_arg2) = W5 m ρ c (Proc.devRef .tc main_arg2) :=
  W6_of_ne m ρ c main_arg2 (by decide)
theorem at6_main_arg2 : W6 m ρ c (Proc.devRef .tc main_arg2) = m ((c : Thread nD τ).loc main_arg2) :=
  (keep6_main_arg2 m ρ c).trans (at5_main_arg2 m ρ c)

theorem keep7_main_arg2 : W7 m ρ c (Proc.devRef .tc main_arg2) = W6 m ρ c (Proc.devRef .tc main_arg2) := by
  dsimp only [W7, hostOps3]
  after_results_simp
theorem at7_main_arg2 : W7 m ρ c (Proc.devRef .tc main_arg2) = m ((c : Thread nD τ).loc main_arg2) :=
  (keep7_main_arg2 m ρ c).trans (at6_main_arg2 m ρ c)

theorem keep8_main_arg2 : W8 m ρ c (Proc.devRef .tc main_arg2) = W7 m ρ c (Proc.devRef .tc main_arg2) :=
  W8_of_ne m ρ c main_arg2 (by decide)
theorem at8_main_arg2 : W8 m ρ c (Proc.devRef .tc main_arg2) = m ((c : Thread nD τ).loc main_arg2) :=
  (keep8_main_arg2 m ρ c).trans (at7_main_arg2 m ρ c)

theorem keep9_main_arg2 : W9 m ρ c (Proc.devRef .tc main_arg2) = W8 m ρ c (Proc.devRef .tc main_arg2) := by
  dsimp only [W9, hostOps4]
  after_results_simp
theorem at9_main_arg2 : W9 m ρ c (Proc.devRef .tc main_arg2) = m ((c : Thread nD τ).loc main_arg2) :=
  (keep9_main_arg2 m ρ c).trans (at8_main_arg2 m ρ c)

theorem keep10_main_arg2 : W10 m ρ c (Proc.devRef .tc main_arg2) = W9 m ρ c (Proc.devRef .tc main_arg2) :=
  W10_of_ne m ρ c main_arg2 (by decide)
theorem at10_main_arg2 : W10 m ρ c (Proc.devRef .tc main_arg2) = m ((c : Thread nD τ).loc main_arg2) :=
  (keep10_main_arg2 m ρ c).trans (at9_main_arg2 m ρ c)

theorem keep2_main_v4 : W2 m ρ c (Proc.devRef .tc main_v4) = W1 m ρ c (Proc.devRef .tc main_v4) :=
  W2_of_ne m ρ c main_v4 (by decide)
theorem at2_main_v4 : W2 m ρ c (Proc.devRef .tc main_v4) = Cert.ReferenceIdeal.Read.val_main_v38 (F := Ideal) :=
  (keep2_main_v4 m ρ c).trans (at1_main_v4 m ρ c)

theorem keep3_main_v4 : W3 m ρ c (Proc.devRef .tc main_v4) = W2 m ρ c (Proc.devRef .tc main_v4) := by
  dsimp only [W3, hostOps1]
  after_results_simp
theorem at3_main_v4 : W3 m ρ c (Proc.devRef .tc main_v4) = Cert.ReferenceIdeal.Read.val_main_v38 (F := Ideal) :=
  (keep3_main_v4 m ρ c).trans (at2_main_v4 m ρ c)

theorem keep2_main_arg5 : W2 m ρ c (Proc.devRef .tc main_arg5) = W1 m ρ c (Proc.devRef .tc main_arg5) :=
  W2_of_ne m ρ c main_arg5 (by decide)
theorem at2_main_arg5 : W2 m ρ c (Proc.devRef .tc main_arg5) = m ((c : Thread nD τ).loc main_arg5) :=
  (keep2_main_arg5 m ρ c).trans (at1_main_arg5 m ρ c)

theorem keep3_main_arg5 : W3 m ρ c (Proc.devRef .tc main_arg5) = W2 m ρ c (Proc.devRef .tc main_arg5) := by
  dsimp only [W3, hostOps1]
  after_results_simp
theorem at3_main_arg5 : W3 m ρ c (Proc.devRef .tc main_arg5) = m ((c : Thread nD τ).loc main_arg5) :=
  (keep3_main_arg5 m ρ c).trans (at2_main_arg5 m ρ c)

theorem keep4_main_arg5 : W4 m ρ c (Proc.devRef .tc main_arg5) = W3 m ρ c (Proc.devRef .tc main_arg5) :=
  W4_of_ne m ρ c main_arg5 (by decide)
theorem at4_main_arg5 : W4 m ρ c (Proc.devRef .tc main_arg5) = m ((c : Thread nD τ).loc main_arg5) :=
  (keep4_main_arg5 m ρ c).trans (at3_main_arg5 m ρ c)

theorem keep5_main_arg5 : W5 m ρ c (Proc.devRef .tc main_arg5) = W4 m ρ c (Proc.devRef .tc main_arg5) := by
  dsimp only [W5, hostOps2]
  after_results_simp
theorem at5_main_arg5 : W5 m ρ c (Proc.devRef .tc main_arg5) = m ((c : Thread nD τ).loc main_arg5) :=
  (keep5_main_arg5 m ρ c).trans (at4_main_arg5 m ρ c)

theorem keep2_main_arg6 : W2 m ρ c (Proc.devRef .tc main_arg6) = W1 m ρ c (Proc.devRef .tc main_arg6) :=
  W2_of_ne m ρ c main_arg6 (by decide)
theorem at2_main_arg6 : W2 m ρ c (Proc.devRef .tc main_arg6) = m ((c : Thread nD τ).loc main_arg6) :=
  (keep2_main_arg6 m ρ c).trans (at1_main_arg6 m ρ c)

theorem keep3_main_arg6 : W3 m ρ c (Proc.devRef .tc main_arg6) = W2 m ρ c (Proc.devRef .tc main_arg6) := by
  dsimp only [W3, hostOps1]
  after_results_simp
theorem at3_main_arg6 : W3 m ρ c (Proc.devRef .tc main_arg6) = m ((c : Thread nD τ).loc main_arg6) :=
  (keep3_main_arg6 m ρ c).trans (at2_main_arg6 m ρ c)

theorem keep4_main_arg6 : W4 m ρ c (Proc.devRef .tc main_arg6) = W3 m ρ c (Proc.devRef .tc main_arg6) :=
  W4_of_ne m ρ c main_arg6 (by decide)
theorem at4_main_arg6 : W4 m ρ c (Proc.devRef .tc main_arg6) = m ((c : Thread nD τ).loc main_arg6) :=
  (keep4_main_arg6 m ρ c).trans (at3_main_arg6 m ρ c)

theorem keep2_main_arg7 : W2 m ρ c (Proc.devRef .tc main_arg7) = W1 m ρ c (Proc.devRef .tc main_arg7) :=
  W2_of_ne m ρ c main_arg7 (by decide)
theorem at2_main_arg7 : W2 m ρ c (Proc.devRef .tc main_arg7) = m ((c : Thread nD τ).loc main_arg7) :=
  (keep2_main_arg7 m ρ c).trans (at1_main_arg7 m ρ c)

theorem keep3_main_arg7 : W3 m ρ c (Proc.devRef .tc main_arg7) = W2 m ρ c (Proc.devRef .tc main_arg7) := by
  dsimp only [W3, hostOps1]
  after_results_simp
theorem at3_main_arg7 : W3 m ρ c (Proc.devRef .tc main_arg7) = m ((c : Thread nD τ).loc main_arg7) :=
  (keep3_main_arg7 m ρ c).trans (at2_main_arg7 m ρ c)

theorem keep4_main_arg7 : W4 m ρ c (Proc.devRef .tc main_arg7) = W3 m ρ c (Proc.devRef .tc main_arg7) :=
  W4_of_ne m ρ c main_arg7 (by decide)
theorem at4_main_arg7 : W4 m ρ c (Proc.devRef .tc main_arg7) = m ((c : Thread nD τ).loc main_arg7) :=
  (keep4_main_arg7 m ρ c).trans (at3_main_arg7 m ρ c)

theorem keep5_main_arg7 : W5 m ρ c (Proc.devRef .tc main_arg7) = W4 m ρ c (Proc.devRef .tc main_arg7) := by
  dsimp only [W5, hostOps2]
  after_results_simp
theorem at5_main_arg7 : W5 m ρ c (Proc.devRef .tc main_arg7) = m ((c : Thread nD τ).loc main_arg7) :=
  (keep5_main_arg7 m ρ c).trans (at4_main_arg7 m ρ c)

theorem keep6_main_arg7 : W6 m ρ c (Proc.devRef .tc main_arg7) = W5 m ρ c (Proc.devRef .tc main_arg7) :=
  W6_of_ne m ρ c main_arg7 (by decide)
theorem at6_main_arg7 : W6 m ρ c (Proc.devRef .tc main_arg7) = m ((c : Thread nD τ).loc main_arg7) :=
  (keep6_main_arg7 m ρ c).trans (at5_main_arg7 m ρ c)

theorem keep7_main_arg7 : W7 m ρ c (Proc.devRef .tc main_arg7) = W6 m ρ c (Proc.devRef .tc main_arg7) := by
  dsimp only [W7, hostOps3]
  after_results_simp
theorem at7_main_arg7 : W7 m ρ c (Proc.devRef .tc main_arg7) = m ((c : Thread nD τ).loc main_arg7) :=
  (keep7_main_arg7 m ρ c).trans (at6_main_arg7 m ρ c)

theorem keep8_main_arg7 : W8 m ρ c (Proc.devRef .tc main_arg7) = W7 m ρ c (Proc.devRef .tc main_arg7) :=
  W8_of_ne m ρ c main_arg7 (by decide)
theorem at8_main_arg7 : W8 m ρ c (Proc.devRef .tc main_arg7) = m ((c : Thread nD τ).loc main_arg7) :=
  (keep8_main_arg7 m ρ c).trans (at7_main_arg7 m ρ c)

theorem keep9_main_arg7 : W9 m ρ c (Proc.devRef .tc main_arg7) = W8 m ρ c (Proc.devRef .tc main_arg7) := by
  dsimp only [W9, hostOps4]
  after_results_simp
theorem at9_main_arg7 : W9 m ρ c (Proc.devRef .tc main_arg7) = m ((c : Thread nD τ).loc main_arg7) :=
  (keep9_main_arg7 m ρ c).trans (at8_main_arg7 m ρ c)

theorem keep2_main_arg8 : W2 m ρ c (Proc.devRef .tc main_arg8) = W1 m ρ c (Proc.devRef .tc main_arg8) :=
  W2_of_ne m ρ c main_arg8 (by decide)
theorem at2_main_arg8 : W2 m ρ c (Proc.devRef .tc main_arg8) = m ((c : Thread nD τ).loc main_arg8) :=
  (keep2_main_arg8 m ρ c).trans (at1_main_arg8 m ρ c)

theorem keep3_main_arg8 : W3 m ρ c (Proc.devRef .tc main_arg8) = W2 m ρ c (Proc.devRef .tc main_arg8) := by
  dsimp only [W3, hostOps1]
  after_results_simp
theorem at3_main_arg8 : W3 m ρ c (Proc.devRef .tc main_arg8) = m ((c : Thread nD τ).loc main_arg8) :=
  (keep3_main_arg8 m ρ c).trans (at2_main_arg8 m ρ c)

theorem keep4_main_arg8 : W4 m ρ c (Proc.devRef .tc main_arg8) = W3 m ρ c (Proc.devRef .tc main_arg8) :=
  W4_of_ne m ρ c main_arg8 (by decide)
theorem at4_main_arg8 : W4 m ρ c (Proc.devRef .tc main_arg8) = m ((c : Thread nD τ).loc main_arg8) :=
  (keep4_main_arg8 m ρ c).trans (at3_main_arg8 m ρ c)

theorem keep5_main_arg8 : W5 m ρ c (Proc.devRef .tc main_arg8) = W4 m ρ c (Proc.devRef .tc main_arg8) := by
  dsimp only [W5, hostOps2]
  after_results_simp
theorem at5_main_arg8 : W5 m ρ c (Proc.devRef .tc main_arg8) = m ((c : Thread nD τ).loc main_arg8) :=
  (keep5_main_arg8 m ρ c).trans (at4_main_arg8 m ρ c)

theorem keep6_main_arg8 : W6 m ρ c (Proc.devRef .tc main_arg8) = W5 m ρ c (Proc.devRef .tc main_arg8) :=
  W6_of_ne m ρ c main_arg8 (by decide)
theorem at6_main_arg8 : W6 m ρ c (Proc.devRef .tc main_arg8) = m ((c : Thread nD τ).loc main_arg8) :=
  (keep6_main_arg8 m ρ c).trans (at5_main_arg8 m ρ c)

theorem keep7_main_arg8 : W7 m ρ c (Proc.devRef .tc main_arg8) = W6 m ρ c (Proc.devRef .tc main_arg8) := by
  dsimp only [W7, hostOps3]
  after_results_simp
theorem at7_main_arg8 : W7 m ρ c (Proc.devRef .tc main_arg8) = m ((c : Thread nD τ).loc main_arg8) :=
  (keep7_main_arg8 m ρ c).trans (at6_main_arg8 m ρ c)

theorem keep8_main_arg8 : W8 m ρ c (Proc.devRef .tc main_arg8) = W7 m ρ c (Proc.devRef .tc main_arg8) :=
  W8_of_ne m ρ c main_arg8 (by decide)
theorem at8_main_arg8 : W8 m ρ c (Proc.devRef .tc main_arg8) = m ((c : Thread nD τ).loc main_arg8) :=
  (keep8_main_arg8 m ρ c).trans (at7_main_arg8 m ρ c)

end Cert.KernelIdeal.Hand

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«174604_j41987600285801_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«174604_j41987600285801_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«174604_j41987600285801_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibProductRows.lean ====
/-
  Matrix products and linear layers on a block of rows, as whole-array functions on the extended reals.

  * A matrix unit's product of two operands narrowed to a shorter float format, accumulated into zero, is the plain
    product `mm` of the operands: narrowing is the identity on extended reals.
  * An entry of a product depends on one row of the left operand and one column of the right: a block of rows of a
    taller array computes the entries of the whole array's product at those rows (`mm_block`), and the same for a
    product plus a 1 x N bias row (`lin_block`).
  * The host's product plus a bias broadcast in two steps is the linear layer `lin`, and a linear layer is the product
    with the row added.
-/
import Idealize.ShloMosaic.Lib.ValueIdx
import Idealize.ShloMosaic.Lib.Pipeline.Value
import Idealize.ShloMosaic.PureOps.Ideal.Laws
import proofs.«174604_j41987600285801_1_alg».proof.Proof.LibRowLayers

noncomputable section

open scoped BigOperators

namespace Cert.Lib.ProductRows

open Idealize.ShloMosaic Idealize.ShloMosaic.ValueIdx Cert.Lib.BiasDot Cert.Lib.Dense Cert.Lib.RowLayers

variable {m M K N : Nat}

/-- The product into zero of two narrowed operands is the plain product of the operands. -/
theorem narrowMatmul_eq_mm (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32)
    (hb0 hb1 : FTy.bf16.bits < FTy.f32.bits) :
    FloatOps.matmul d none (truncf .bf16 x0 hb0) (truncf .bf16 x1 hb1) (constant ⟨2, ![M, N]⟩ .f32 0x00000000#32)
      = mm x0 x1 := by
  subst hd
  funext i
  obtain ⟨p, q, rfl⟩ : ∃ (p : Fin M) (q : Fin N), i = ix2 p q := ⟨i 0, i 1, eq_ix2 i⟩
  rw [Cert.Lib.PlainDot.matmul_zero_apply]
  rfl

/-- A block of rows of a product: entry `j` of the block's product is entry `i` of the array's when the block's row
    `j 0` is the array's row `i 0` and the right operands agree on the column. -/
theorem mm_block (x0 : (⟨2, ![m, K]⟩ : Shape).Idx → EReal) (x1 : (⟨2, ![K, N]⟩ : Shape).Idx → EReal)
    (A : (⟨2, ![M, K]⟩ : Shape).Idx → EReal) (W : (⟨2, ![K, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1))) :
    mm x0 x1 j = mm A W i :=
  Finset.sum_congr rfl fun k _ => by rw [h0 k, h1 k]

/-- The same for a product plus a 1 x N bias row. -/
theorem lin_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The host's product plus a bias vector broadcast to a row and then down the rows is the linear layer. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  rw [host_addRow, host_mm d hd]
  rfl

end Cert.Lib.ProductRows

end
-- ==== Proof.Launch0.lean ====
/-
  Launch 0 of the program: a linear layer computed 5000 rows at a time.

  The launch walks the 100000 rows of its left operand in 20 blocks of 5000 rows; at each block the body multiplies the
  block by the whole 128 x 128 weight (both narrowed to a shorter float format first, which changes nothing on extended
  reals), accumulates into zero, adds the 1 x 128 bias row to every row, and stores the 5000 x 128 result; the result
  block is written back to rows 5000 t .. 5000 t + 4999 of the output array. An entry of the layer depends on one row
  of the left operand only, so the twenty written blocks are the rows of ONE function of the arrays as the launch finds
  them — the linear layer of the whole left operand —, and they cover the output array: after the launch the output
  array holds that function.
-/
import proofs.«174604_j41987600285801_1_alg».proof.Proof.Gen.KernelIdeal.Frame
import proofs.«174604_j41987600285801_1_alg».proof.Proof.LibProductRows
import Idealize.ShloMosaic.Lib.Pipeline.Value

set_option maxRecDepth 16384

noncomputable section

namespace Cert.KernelIdeal.Hand.Launch0

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.BiasDot Cert.Lib.RowLayers Cert.Lib.ProductRows

variable (V : (c : Dev nD) → (b : Ref sig .tc) → Buf (Elt Ideal) ((c : Thread nD τ).loc b))

theorem origin2 : (![0, 0] : Fin 2 → Nat) = fun _ => 0 := funext fun a => by fin_cases a <;> rfl

/-- The block index maps over the grid: the left operand and the output move down one block of rows per point, the
    weight and the bias row stay put. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value is the linear layer of the three loaded blocks. -/
theorem payload_eq (x0 : Vec Ideal S5000x128 .f32) (x1 : Vec Ideal S128x128 .f32) (x2 : Vec Ideal S1x128 .f32) :
    k0_pay1 x0 x1 x2 = lin (M := 5000) (K := 128) (N := 128) x0 x1 (rowVec x2) := by
  unfold k0_pay1
  exact linLayer_eq dot_S5000x128_S128x128_S5000x128_1_0_0_1_n_n rfl x0 x1 x2 _ _ _ _

/-- What point `t` writes back is block `t` of the linear layer of the arrays as the launch finds them. -/
theorem flushed_eq (c : Dev nD) (t : Fin cfg0.N) :
    (dat0 V c).flushed 3 t = ((cfg0.win 3).blk t).view.read (Elt Ideal)
      (lin (M := 100000) (K := 128) (N := 128) (V c main_arg0) (V c main_arg3) (rowVec (V c main_v5))) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2,
    View.ld_unit_zero (S := S1x128) origin2]
  rw [payload_eq]
  obtain ⟨e0, e1, e2, e3, e4, e5, e6, e7⟩ := blockIdx t
  funext j
  show lin (M := 5000) (K := 128) (N := 128) (iblk0 V c 0 t) (iblk0 V c 1 t) (rowVec (iblk0 V c 2 t)) j
    = lin (M := 100000) (K := 128) (N := 128) (V c main_arg0) (V c main_arg3) (rowVec (V c main_v5)) (((cfg0.win 3).blk t).view.emb j)
  refine lin_block (iblk0 V c 0 t) (iblk0 V c 1 t) (iblk0 V c 2 t) (V c main_arg0) (V c main_arg3) (V c main_v5) j
    (((cfg0.win 3).blk t).view.emb j) (fun k => ?_) (fun k => ?_) ?_
  · show V c main_arg0 (((cfg0.win 0).blk t).view.emb (ix2 (j 0) k)) = _
    refine congrArg (V c main_arg0) ?_
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v5 (((cfg0.win 2).blk t).view.emb (ix2 (0 : Fin 1) (j 1))) = _
    refine congrArg (V c main_v5) ?_
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the output array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6).slice (win0_3.rect t)).set ↔ _
  rw [View.set_slice_whole, Rect.mem_set_unit]
  exact Iff.rfl

/-- Row `r` of the output array lies in the block of point `r / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e6, e7⟩ := blockIdx ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- After the launch the output array is the linear layer of the arrays as the launch finds them. -/
theorem final (c : Dev nD) :
    (dat0 V c).arrAt 3 cfg0.N
      = lin (M := 100000) (K := 128) (N := 128) (V c main_arg0) (V c main_arg3) (rowVec (V c main_v5)) :=
  (dat0 V c).arrAt_eq_of_cover 3 _ (fun t _ => flushed_eq V c t) covered

end Cert.KernelIdeal.Hand.Launch0

end
-- ==== Proof.LibPairNorm.lean ====
/-
  Centring, scaling, positive part and residual, on the extended reals.

  A graph layer's normalisation step takes an M x N array `h`, a 1 x N row of column means, one scale `s` and a residual
  array, and produces `max ((h - mean) * s, 0) + residual` entry by entry: `pnr`. This file reads at an entry the
  spelling a vector unit gives it on a block of rows, states that an entry depends on the same entry of `h` and of the
  residual, on one entry of the row and on the scale, and collects the facts on the extended reals that join it to a
  spelling that DIVIDES by the root-mean-square row norm `r` where the first multiplies by `1 / r`:

  * `d * (1 / r) = (1 * d) / r` for every extended real `d` as soon as `r` is not zero (at `r = 0` the two differ at
    `d = 0`), with no finiteness asked of `d` or of `r`;
  * `r` is not zero: it is the square root of `eps + q` with `eps` a positive real and `q` a mean of squares, and a
    square of an extended real, a sum of such squares from zero, and its quotient by a positive real are all
    non-negative, so `eps + q` is positive and its root is a positive real or `+inf`.
  * the words of 100000.0 and of 1e-6 (rounded to binary32) denote positive reals.
-/
import Idealize.ShloMosaic.Lib.ValueIdx
import Idealize.ShloMosaic.Lib.Pipeline.Value
import Idealize.ShloMosaic.Lib.IdealHost
import Idealize.ShloMosaic.PureOps.Ideal.Laws
import proofs.«174604_j41987600285801_1_alg».proof.Proof.LibRowLayers

noncomputable section

open scoped BigOperators

namespace Cert.Lib.PairNorm

open Idealize.ShloMosaic Idealize.ShloMosaic.ValueIdx

variable {m M N : Nat}

/-- Entry `i` of the normalisation step: centre by the column's mean, scale, take the positive part, add the residual. -/
def pnr (h : (⟨2, ![M, N]⟩ : Shape).Idx → EReal) (mean : (⟨2, ![1, N]⟩ : Shape).Idx → EReal)
    (s : (⟨2, ![1, 1]⟩ : Shape).Idx → EReal) (res : (⟨2, ![M, N]⟩ : Shape).Idx → EReal) :
    (⟨2, ![M, N]⟩ : Shape).Idx → EReal :=
  fun i => max ((h i - mean (ix2 (0 : Fin 1) (i 1))) * s (ix2 (0 : Fin 1) (0 : Fin 1))) 0 + res i

theorem pnr_apply (h : (⟨2, ![M, N]⟩ : Shape).Idx → EReal) (mean : (⟨2, ![1, N]⟩ : Shape).Idx → EReal)
    (s : (⟨2, ![1, 1]⟩ : Shape).Idx → EReal) (res : (⟨2, ![M, N]⟩ : Shape).Idx → EReal) (i : (⟨2, ![M, N]⟩ : Shape).Idx) :
    pnr h mean s res i = max ((h i - mean (ix2 (0 : Fin 1) (i 1))) * s (ix2 (0 : Fin 1) (0 : Fin 1))) 0 + res i := rfl

/-- The vector unit's spelling on a block: the row of means repeated down the rows, the scale extracted from its 1 x 1
    array and splat, the positive part as a maximum with a splat zero. -/
theorem body_eq (x0 : FVec Ideal ⟨2, ![M, N]⟩ .f32) (x1 : FVec Ideal ⟨2, ![1, N]⟩ .f32)
    (x2 : FVec Ideal ⟨2, ![1, 1]⟩ .f32) (x3 : FVec Ideal ⟨2, ![M, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩)
    (hp : ∀ a, (![0, 0] : Fin 2 → Nat) a < (⟨2, ![1, 1]⟩ : Shape).size a) :
    addf (maximumf (mulf (subf (shapeCast ⟨2, ![M, N]⟩ x0 h0) (broadcastTo ⟨2, ![M, N]⟩ (shapeCast ⟨2, ![1, N]⟩ x1 h1) hb))
          (broadcast ⟨2, ![M, N]⟩ (extractAt ![0, 0] x2 hp)))
        (broadcast ⟨2, ![M, N]⟩ (Scalar.ofBits (F := Ideal) .f32 0x00000000#32)))
      (shapeCast ⟨2, ![M, N]⟩ x3 h0) = pnr x0 x1 x2 x3 := by
  funext i
  obtain ⟨p, q, rfl⟩ : ∃ (p : Fin M) (q : Fin N), i = ix2 p q := ⟨i 0, i 1, eq_ix2 i⟩
  rw [addf_apply, maximumf_apply, mulf_apply, subf_apply, Cert.Lib.RowLayers.rowRepeat_apply, broadcast_apply,
    broadcast_apply, shapeCast_self, shapeCast_self]
  show max ((x0 (ix2 p q) - x1 (ix2 (0 : Fin 1) q)) * x2 (fun a => ⟨(![0, 0] : Fin 2 → Nat) a, hp a⟩))
      (Ideal.ofBits .f32 0x00000000#32) + x3 (ix2 p q) = _
  rw [Ideal.ofBits_zero_f32]
  have e : (fun a => ⟨(![0, 0] : Fin 2 → Nat) a, hp a⟩ : (⟨2, ![1, 1]⟩ : Shape).Idx) = ix2 (0 : Fin 1) (0 : Fin 1) := by
    funext a
    match a with
    | ⟨0, _⟩ => rfl
    | ⟨1, _⟩ => rfl
  rw [e]
  rfl

/-- An entry of the step on a block of rows is the entry of the step on the whole arrays, when the block's entry of
    `h` and of the residual are the arrays', the rows agree on the column and the scales agree. -/
theorem pnr_block (x0 : (⟨2, ![m, N]⟩ : Shape).Idx → EReal) (x1 : (⟨2, ![1, N]⟩ : Shape).Idx → EReal)
    (x2 : (⟨2, ![1, 1]⟩ : Shape).Idx → EReal) (x3 : (⟨2, ![m, N]⟩ : Shape).Idx → EReal)
    (A : (⟨2, ![M, N]⟩ : Shape).Idx → EReal) (R : (⟨2, ![1, N]⟩ : Shape).Idx → EReal)
    (S : (⟨2, ![1, 1]⟩ : Shape).Idx → EReal) (X : (⟨2, ![M, N]⟩ : Shape).Idx → EReal)
    (j : (⟨2, ![m, N]⟩ : Shape).Idx) (i : (⟨2, ![M, N]⟩ : Shape).Idx)
    (h0 : x0 j = A i) (h1 : x1 (ix2 (0 : Fin 1) (j 1)) = R (ix2 (0 : Fin 1) (i 1)))
    (h2 : x2 (ix2 (0 : Fin 1) (0 : Fin 1)) = S (ix2 (0 : Fin 1) (0 : Fin 1))) (h3 : x3 j = X i) :
    pnr x0 x1 x2 x3 j = pnr A R S X i := by
  show max ((x0 j - x1 (ix2 (0 : Fin 1) (j 1))) * x2 (ix2 (0 : Fin 1) (0 : Fin 1))) 0 + x3 j
    = max ((A i - R (ix2 (0 : Fin 1) (i 1))) * S (ix2 (0 : Fin 1) (0 : Fin 1))) 0 + X i
  rw [h0, h1, h2, h3]

/-! ## Dividing by the norm, or multiplying by its reciprocal -/

/-- `(1 * d) / r = d * (1 / r)` for a divisor that is not zero. -/
theorem div_eq_mul_recip (d r : EReal) (hr : r ≠ 0) : Ideal.div (1 * d) r = d * Ideal.div 1 r := by
  rw [one_mul, Ideal.mul_one_div hr]

/-- The square of an extended real is not negative. -/
theorem mul_self_nonneg (d : EReal) : 0 ≤ d * d := by
  induction d using EReal.rec with
  | bot => simp
  | coe r => rw [← EReal.coe_mul]; exact EReal.coe_nonneg.mpr (_root_.mul_self_nonneg r)
  | top => simp

/-- The host's sum from zero of terms that are not negative is not negative. -/
theorem hostReduceAdd_nonneg {s t : Shape} {axes : List (Fin s.rank)} (h : s.ReducesTo axes t) (x : s.Idx → EReal)
    (hx : ∀ i, 0 ≤ x i) (j : t.Idx) : 0 ≤ Ideal.hostReduceAdd h x 0 j := by
  unfold Ideal.hostReduceAdd
  rw [zero_add]
  exact Finset.sum_nonneg fun i _ => hx i

/-- A quotient of a non-negative extended real by a positive real is not negative. -/
theorem div_nonneg {s : EReal} {n : ℝ} (hs : 0 ≤ s) (hn : 0 < n) : 0 ≤ Ideal.div s (n : EReal) := by
  rw [Ideal.div_coe hn.ne']
  exact EReal.mul_nonneg hs (EReal.coe_nonneg.mpr (by positivity))

/-- The square root of a positive extended real is not zero. -/
theorem sqrt_ne_zero {x : EReal} (hx : 0 < x) : Ideal.sqrt x ≠ 0 := by
  induction x using EReal.rec with
  | bot => exact absurd hx (by simp)
  | coe r =>
    have hr : 0 < r := EReal.coe_pos.mp hx
    show (if r < 0 then (⊥ : EReal) else (Real.sqrt r : EReal)) ≠ 0
    rw [if_neg (not_lt.mpr hr.le)]
    exact_mod_cast (Real.sqrt_pos.mpr hr).ne'
  | top => show (⊤ : EReal) ≠ 0; simp

/-- The norm `sqrt (eps + q)` is not zero for `eps` positive and `q` not negative. -/
theorem norm_ne_zero {e q : EReal} (he : 0 < e) (hq : 0 ≤ q) : Ideal.sqrt (e + q) ≠ 0 :=
  sqrt_ne_zero (lt_of_lt_of_le he (le_add_of_nonneg_right hq))

/-- The word of 100000.0 denotes the real 100000. -/
theorem count_word : Ideal.ofBits .f32 0x47C35000#32 = ((100000 : ℝ) : EReal) := by
  simp [Ideal.ofBits, Ideal.ieee, -EReal.coe_mul]
  norm_num

/-- The word of 1e-6 rounded to binary32 denotes a positive real. -/
theorem eps_word_pos : (0 : EReal) < Ideal.ofBits .f32 0x358637BD#32 := by
  simp [Ideal.ofBits, Ideal.ieee, -EReal.coe_mul]

end Cert.Lib.PairNorm

end
-- ==== Proof.Launch1.lean ====
/-
  Launch 1 of the program: the normalisation step computed 5000 rows at a time.

  The launch walks the 100000 rows of the aggregated features and of the residual in 20 blocks of 5000 rows; at each
  block the body subtracts the 1 x 128 row of column means from every row, multiplies by the one scale it reads from a
  1 x 1 array, takes the positive part and adds the residual block; the 5000 x 128 result is written back to rows
  5000 t .. 5000 t + 4999 of the output array. An entry of the step depends on the same entry of its two tall operands
  only, so the twenty written blocks are the rows of ONE function of the arrays as the launch finds them, and they
  cover the output array: after the launch the output array holds that function.
-/
import proofs.«174604_j41987600285801_1_alg».proof.Proof.Gen.KernelIdeal.Frame
import proofs.«174604_j41987600285801_1_alg».proof.Proof.LibPairNorm
import Idealize.ShloMosaic.Lib.Pipeline.Value

set_option maxRecDepth 16384

noncomputable section

namespace Cert.KernelIdeal.Hand.Launch1

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.PairNorm

variable (V : (c : Dev nD) → (b : Ref sig .tc) → Buf (Elt Ideal) ((c : Thread nD τ).loc b))

theorem origin2 : (![0, 0] : Fin 2 → Nat) = fun _ => 0 := funext fun a => by fin_cases a <;> rfl

/-- The block index maps over the grid: the aggregated features, the residual and the output move down one block of
    rows per point; the row of means and the scale stay put. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The body's stored value is the normalisation step of the four loaded blocks. -/
theorem payload_eq (x0 : Vec Ideal S5000x128 .f32) (x1 : Vec Ideal S1x128 .f32) (x2 : Vec Ideal S1x1 .f32)
    (x3 : Vec Ideal S5000x128 .f32) :
    k1_pay1 x0 x1 x2 x3 = pnr (M := 5000) (N := 128) x0 x1 x2 x3 := by
  unfold k1_pay1
  exact body_eq x0 x1 x2 x3 _ _ _ _

/-- What point `t` writes back is block `t` of the step of the arrays as the launch finds them. -/
theorem flushed_eq (c : Dev nD) (t : Fin cfg1.N) :
    (dat1 V c).flushed 4 t = ((cfg1.win 4).blk t).view.read (Elt Ideal)
      (pnr (M := 100000) (N := 128) (V c main_v19) (V c main_v23) (V c main_v33) (V c main_v4)) := by
  show (cfg1.win 4).cut (grid1.coords t) ((dat1 V c).after 4 t) = _
  rw [after1_4]
  unfold out1_4
  rw [View.canon_unit_zero origin2]
  simp only [View.ld_unit_zero (S := S5000x128) origin2, View.ld_unit_zero (S := S1x128) origin2,
    View.ld_unit_zero (S := S1x1) origin2]
  rw [payload_eq]
  obtain ⟨e0, e1, e2, e3, e4, e5, e6, e7, e8, e9⟩ := blockIdx t
  funext j
  show pnr (M := 5000) (N := 128) (iblk1 V c 0 t) (iblk1 V c 1 t) (iblk1 V c 2 t) (iblk1 V c 3 t) j
    = pnr (M := 100000) (N := 128) (V c main_v19) (V c main_v23) (V c main_v33) (V c main_v4) (((cfg1.win 4).blk t).view.emb j)
  refine pnr_block (iblk1 V c 0 t) (iblk1 V c 1 t) (iblk1 V c 2 t) (iblk1 V c 3 t)
    (V c main_v19) (V c main_v23) (V c main_v33) (V c main_v4) j (((cfg1.win 4).blk t).view.emb j) ?_ ?_ ?_ ?_
  · show V c main_v19 (((cfg1.win 0).blk t).view.emb j) = _
    refine congrArg (V c main_v19) ?_
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · show V c main_v23 (((cfg1.win 1).blk t).view.emb (ix2 (0 : Fin 1) (j 1))) = _
    refine congrArg (V c main_v23) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_4.index t (1 : Fin 2) * 128 + 1 * (j 1).val; omega
  · show V c main_v33 (((cfg1.win 2).blk t).view.emb (ix2 (0 : Fin 1) (0 : Fin 1))) = _
    refine congrArg (V c main_v33) ?_
    funext a; apply Fin.ext
    match a with
    | ⟨0, _⟩ => show win1_2.index t (0 : Fin 2) * 1 + 1 * 0 = 0; omega
    | ⟨1, _⟩ => show win1_2.index t (1 : Fin 2) * 1 + 1 * 0 = 0; omega
  · show V c main_v4 (((cfg1.win 3).blk t).view.emb j) = _
    refine congrArg (V c main_v4) ?_
    funext a; apply Fin.ext
    match a with
    | ⟨0, _⟩ => show win1_3.index t (0 : Fin 2) * 5000 + 1 * (j 0).val = win1_4.index t (0 : Fin 2) * 5000 + 1 * (j 0).val; omega
    | ⟨1, _⟩ => show win1_3.index t (1 : Fin 2) * 128 + 1 * (j 1).val = win1_4.index t (1 : Fin 2) * 128 + 1 * (j 1).val; omega

/-- An index of the output array is in point `t`'s block iff each coordinate is in the block's range on its axis. -/
theorem mem_block (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v34).slice (win1_4.rect t)).set ↔ _
  rw [View.set_slice_whole, Rect.mem_set_unit]
  exact Iff.rfl

/-- Row `r` of the output array lies in the block of point `r / 5000`. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e8, e9⟩ := blockIdx ⟨(i 0).val / 5000, ht⟩
  have e8' : win1_4.index ⟨(i 0).val / 5000, ht⟩ (0 : Fin 2) = (i 0).val / 5000 := e8
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    omega

/-- After the launch the output array is the normalisation step of the arrays as the launch finds them. -/
theorem final (c : Dev nD) :
    (dat1 V c).arrAt 4 cfg1.N
      = pnr (M := 100000) (N := 128) (V c main_v19) (V c main_v23) (V c main_v33) (V c main_v4) :=
  (dat1 V c).arrAt_eq_of_cover 4 _ (fun t _ => flushed_eq V c t) covered

end Cert.KernelIdeal.Hand.Launch1

end
-- ==== Proof.Launch2.lean ====
/-
  Launch 2 of the program: a linear layer computed 5000 rows at a time.

  The launch walks the 100000 rows of its left operand in 20 blocks of 5000 rows; at each block the body multiplies the
  block by the whole 128 x 128 weight (both narrowed to a shorter float format first, which changes nothing on extended
  reals), accumulates into zero, adds the 1 x 128 bias row to every row, and stores the 5000 x 128 result; the result
  block is written back to rows 5000 t .. 5000 t + 4999 of the output array. An entry of the layer depends on one row
  of the left operand only, so the twenty written blocks are the rows of ONE function of the arrays as the launch finds
  them — the linear layer of the whole left operand —, and they cover the output array: after the launch the output
  array holds that function.
-/
import proofs.«174604_j41987600285801_1_alg».proof.Proof.Gen.KernelIdeal.Frame
import proofs.«174604_j41987600285801_1_alg».proof.Proof.LibProductRows
import Idealize.ShloMosaic.Lib.Pipeline.Value

set_option maxRecDepth 16384

noncomputable section

namespace Cert.KernelIdeal.Hand.Launch2

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.BiasDot Cert.Lib.RowLayers Cert.Lib.ProductRows

variable (V : (c : Dev nD) → (b : Ref sig .tc) → Buf (Elt Ideal) ((c : Thread nD τ).loc b))

theorem origin2 : (![0, 0] : Fin 2 → Nat) = fun _ => 0 := funext fun a => by fin_cases a <;> rfl

/-- The block index maps over the grid: the left operand and the output move down one block of rows per point, the
    weight and the bias row stay put. -/
theorem blockIdx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's stored value is the linear layer of the three loaded blocks. -/
theorem payload_eq (x0 : Vec Ideal S5000x128 .f32) (x1 : Vec Ideal S128x128 .f32) (x2 : Vec Ideal S1x128 .f32) :
    k2_pay1 x0 x1 x2 = lin (M := 5000) (K := 128) (N := 128) x0 x1 (rowVec x2) := by
  unfold k2_pay1
  rw [shapeCast_self]
  exact linLayer_eq dot_S5000x128_S128x128_S5000x128_1_0_0_1_n_n rfl x0 x1 x2 _ _ _ _

/-- What point `t` writes back is block `t` of the linear layer of the arrays as the launch finds them. -/
theorem flushed_eq (c : Dev nD) (t : Fin cfg2.N) :
    (dat2 V c).flushed 3 t = ((cfg2.win 3).blk t).view.read (Elt Ideal)
      (lin (M := 100000) (K := 128) (N := 128) (V c main_v34) (V c main_arg5) (rowVec (V c main_v35))) := by
  show (cfg2.win 3).cut (grid2.coords t) ((dat2 V c).after 3 t) = _
  rw [after2_3]
  unfold out2_3
  rw [View.canon_unit_zero origin2]
  simp only [View.ld_unit_zero (S := S5000x128) origin2, View.ld_unit_zero (S := S128x128) origin2,
    View.ld_unit_zero (S := S1x128) origin2]
  rw [payload_eq]
  obtain ⟨e0, e1, e2, e3, e4, e5, e6, e7⟩ := blockIdx t
  funext j
  show lin (M := 5000) (K := 128) (N := 128) (iblk2 V c 0 t) (iblk2 V c 1 t) (rowVec (iblk2 V c 2 t)) j
    = lin (M := 100000) (K := 128) (N := 128) (V c main_v34) (V c main_arg5) (rowVec (V c main_v35)) (((cfg2.win 3).blk t).view.emb j)
  refine lin_block (iblk2 V c 0 t) (iblk2 V c 1 t) (iblk2 V c 2 t) (V c main_v34) (V c main_arg5) (V c main_v35) j
    (((cfg2.win 3).blk t).view.emb j) (fun k => ?_) (fun k => ?_) ?_
  · show V c main_v34 (((cfg2.win 0).blk t).view.emb (ix2 (j 0) k)) = _
    refine congrArg (V c main_v34) ?_
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · show V c main_arg5 (((cfg2.win 1).blk t).view.emb (ix2 k (j 1))) = _
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  · show V c main_v35 (((cfg2.win 2).blk t).view.emb (ix2 (0 : Fin 1) (j 1))) = _
    refine congrArg (V c main_v35) ?_
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega

/-- An index of the output array is in point `t`'s block iff each coordinate is in the block's range on its axis. -/
theorem mem_block (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v36).slice (win2_3.rect t)).set ↔ _
  rw [View.set_slice_whole, Rect.mem_set_unit]
  exact Iff.rfl

/-- Row `r` of the output array lies in the block of point `r / 5000`. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, e6, e7⟩ := blockIdx ⟨(i 0).val / 5000, ht⟩
  have e6' : win2_3.index ⟨(i 0).val / 5000, ht⟩ (0 : Fin 2) = (i 0).val / 5000 := e6
  refine ⟨⟨(i 0).val / 5000, ht⟩, flush2_3 _, ?_⟩
  rw [mem_block]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    omega

/-- After the launch the output array is the linear layer of the arrays as the launch finds them. -/
theorem final (c : Dev nD) :
    (dat2 V c).arrAt 3 cfg2.N
      = lin (M := 100000) (K := 128) (N := 128) (V c main_v34) (V c main_arg5) (rowVec (V c main_v35)) :=
  (dat2 V c).arrAt_eq_of_cover 3 _ (fun t _ => flushed_eq V c t) covered

end Cert.KernelIdeal.Hand.Launch2

end
-- ==== Proof.Launch3.lean ====
/-
  Launch 3 of the program: the normalisation step computed 5000 rows at a time.

  The launch walks the 100000 rows of the aggregated features and of the residual in 20 blocks of 5000 rows; at each
  block the body subtracts the 1 x 128 row of column means from every row, multiplies by the one scale it reads from a
  1 x 1 array, takes the positive part and adds the residual block; the 5000 x 128 result is written back to rows
  5000 t .. 5000 t + 4999 of the output array. An entry of the step depends on the same entry of its two tall operands
  only, so the twenty written blocks are the rows of ONE function of the arrays as the launch finds them, and they
  cover the output array: after the launch the output array holds that function.
-/
import proofs.«174604_j41987600285801_1_alg».proof.Proof.Gen.KernelIdeal.Frame
import proofs.«174604_j41987600285801_1_alg».proof.Proof.LibPairNorm
import Idealize.ShloMosaic.Lib.Pipeline.Value

set_option maxRecDepth 16384

noncomputable section

namespace Cert.KernelIdeal.Hand.Launch3

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.PairNorm

variable (V : (c : Dev nD) → (b : Ref sig .tc) → Buf (Elt Ideal) ((c : Thread nD τ).loc b))

theorem origin2 : (![0, 0] : Fin 2 → Nat) = fun _ => 0 := funext fun a => by fin_cases a <;> rfl

/-- The block index maps over the grid: the aggregated features, the residual and the output move down one block of
    rows per point; the row of means and the scale stay put. -/
theorem blockIdx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The body's stored value is the normalisation step of the four loaded blocks. -/
theorem payload_eq (x0 : Vec Ideal S5000x128 .f32) (x1 : Vec Ideal S1x128 .f32) (x2 : Vec Ideal S1x1 .f32)
    (x3 : Vec Ideal S5000x128 .f32) :
    k3_pay1 x0 x1 x2 x3 = pnr (M := 5000) (N := 128) x0 x1 x2 x3 := by
  unfold k3_pay1
  exact body_eq x0 x1 x2 x3 _ _ _ _

/-- What point `t` writes back is block `t` of the step of the arrays as the launch finds them. -/
theorem flushed_eq (c : Dev nD) (t : Fin cfg3.N) :
    (dat3 V c).flushed 4 t = ((cfg3.win 4).blk t).view.read (Elt Ideal)
      (pnr (M := 100000) (N := 128) (V c main_v49) (V c main_v53) (V c main_v63) (V c main_v34)) := by
  show (cfg3.win 4).cut (grid3.coords t) ((dat3 V c).after 4 t) = _
  rw [after3_4]
  unfold out3_4
  rw [View.canon_unit_zero origin2]
  simp only [View.ld_unit_zero (S := S5000x128) origin2, View.ld_unit_zero (S := S1x128) origin2,
    View.ld_unit_zero (S := S1x1) origin2]
  rw [payload_eq]
  obtain ⟨e0, e1, e2, e3, e4, e5, e6, e7, e8, e9⟩ := blockIdx t
  funext j
  show pnr (M := 5000) (N := 128) (iblk3 V c 0 t) (iblk3 V c 1 t) (iblk3 V c 2 t) (iblk3 V c 3 t) j
    = pnr (M := 100000) (N := 128) (V c main_v49) (V c main_v53) (V c main_v63) (V c main_v34) (((cfg3.win 4).blk t).view.emb j)
  refine pnr_block (iblk3 V c 0 t) (iblk3 V c 1 t) (iblk3 V c 2 t) (iblk3 V c 3 t)
    (V c main_v49) (V c main_v53) (V c main_v63) (V c main_v34) j (((cfg3.win 4).blk t).view.emb j) ?_ ?_ ?_ ?_
  · show V c main_v49 (((cfg3.win 0).blk t).view.emb j) = _
    refine congrArg (V c main_v49) ?_
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c main_v53 (((cfg3.win 1).blk t).view.emb (ix2 (0 : Fin 1) (j 1))) = _
    refine congrArg (V c main_v53) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_4.index t (1 : Fin 2) * 128 + 1 * (j 1).val; omega
  · show V c main_v63 (((cfg3.win 2).blk t).view.emb (ix2 (0 : Fin 1) (0 : Fin 1))) = _
    refine congrArg (V c main_v63) ?_
    funext a; apply Fin.ext
    match a with
    | ⟨0, _⟩ => show win3_2.index t (0 : Fin 2) * 1 + 1 * 0 = 0; omega
    | ⟨1, _⟩ => show win3_2.index t (1 : Fin 2) * 1 + 1 * 0 = 0; omega
  · show V c main_v34 (((cfg3.win 3).blk t).view.emb j) = _
    refine congrArg (V c main_v34) ?_
    funext a; apply Fin.ext
    match a with
    | ⟨0, _⟩ => show win3_3.index t (0 : Fin 2) * 5000 + 1 * (j 0).val = win3_4.index t (0 : Fin 2) * 5000 + 1 * (j 0).val; omega
    | ⟨1, _⟩ => show win3_3.index t (1 : Fin 2) * 128 + 1 * (j 1).val = win3_4.index t (1 : Fin 2) * 128 + 1 * (j 1).val; omega

/-- An index of the output array is in point `t`'s block iff each coordinate is in the block's range on its axis. -/
theorem mem_block (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v64).slice (win3_4.rect t)).set ↔ _
  rw [View.set_slice_whole, Rect.mem_set_unit]
  exact Iff.rfl

/-- Row `r` of the output array lies in the block of point `r / 5000`. -/
theorem covered (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, -, -, e8, e9⟩ := blockIdx ⟨(i 0).val / 5000, ht⟩
  have e8' : win3_4.index ⟨(i 0).val / 5000, ht⟩ (0 : Fin 2) = (i 0).val / 5000 := e8
  refine ⟨⟨(i 0).val / 5000, ht⟩, flush3_4 _, ?_⟩
  rw [mem_block]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    omega

/-- After the launch the output array is the normalisation step of the arrays as the launch finds them. -/
theorem final (c : Dev nD) :
    (dat3 V c).arrAt 4 cfg3.N
      = pnr (M := 100000) (N := 128) (V c main_v49) (V c main_v53) (V c main_v63) (V c main_v34) :=
  (dat3 V c).arrAt_eq_of_cover 4 _ (fun t _ => flushed_eq V c t) covered

end Cert.KernelIdeal.Hand.Launch3

end
-- ==== Proof.Launch4.lean ====
/-
  Launch 4 of the program: a linear layer computed 5000 rows at a time.

  The launch walks the 100000 rows of its left operand in 20 blocks of 5000 rows; at each block the body multiplies the
  block by the whole 128 x 64 weight (both narrowed to a shorter float format first, which changes nothing on extended
  reals), accumulates into zero, adds the 1 x 64 bias row to every row, and stores the 5000 x 64 result; the result
  block is written back to rows 5000 t .. 5000 t + 4999 of the output array. An entry of the layer depends on one row
  of the left operand only, so the twenty written blocks are the rows of ONE function of the arrays as the launch finds
  them — the linear layer of the whole left operand —, and they cover the output array: after the launch the output
  array holds that function.
-/
import proofs.«174604_j41987600285801_1_alg».proof.Proof.Gen.KernelIdeal.Frame
import proofs.«174604_j41987600285801_1_alg».proof.Proof.LibProductRows
import Idealize.ShloMosaic.Lib.Pipeline.Value

set_option maxRecDepth 16384

noncomputable section

namespace Cert.KernelIdeal.Hand.Launch4

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.BiasDot Cert.Lib.RowLayers Cert.Lib.ProductRows

variable (V : (c : Dev nD) → (b : Ref sig .tc) → Buf (Elt Ideal) ((c : Thread nD τ).loc b))

theorem origin2 : (![0, 0] : Fin 2 → Nat) = fun _ => 0 := funext fun a => by fin_cases a <;> rfl

/-- The block index maps over the grid: the left operand and the output move down one block of rows per point, the
    weight and the bias row stay put. -/
theorem blockIdx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's stored value is the linear layer of the three loaded blocks. -/
theorem payload_eq (x0 : Vec Ideal S5000x128 .f32) (x1 : Vec Ideal S128x64 .f32) (x2 : Vec Ideal S1x64 .f32) :
    k4_pay1 x0 x1 x2 = lin (M := 5000) (K := 128) (N := 64) x0 x1 (rowVec x2) := by
  unfold k4_pay1
  rw [shapeCast_self]
  exact linLayer_eq dot_S5000x128_S128x64_S5000x64_1_0_0_1_n_n rfl x0 x1 x2 _ _ _ _

/-- What point `t` writes back is block `t` of the linear layer of the arrays as the launch finds them. -/
theorem flushed_eq (c : Dev nD) (t : Fin cfg4.N) :
    (dat4 V c).flushed 3 t = ((cfg4.win 3).blk t).view.read (Elt Ideal)
      (lin (M := 100000) (K := 128) (N := 64) (V c main_v64) (V c main_arg7) (rowVec (V c main_v65))) := by
  show (cfg4.win 3).cut (grid4.coords t) ((dat4 V c).after 3 t) = _
  rw [after4_3]
  unfold out4_3
  rw [View.canon_unit_zero origin2]
  simp only [View.ld_unit_zero (S := S5000x128) origin2, View.ld_unit_zero (S := S128x64) origin2,
    View.ld_unit_zero (S := S1x64) origin2]
  rw [payload_eq]
  obtain ⟨e0, e1, e2, e3, e4, e5, e6, e7⟩ := blockIdx t
  funext j
  show lin (M := 5000) (K := 128) (N := 64) (iblk4 V c 0 t) (iblk4 V c 1 t) (rowVec (iblk4 V c 2 t)) j
    = lin (M := 100000) (K := 128) (N := 64) (V c main_v64) (V c main_arg7) (rowVec (V c main_v65)) (((cfg4.win 3).blk t).view.emb j)
  refine lin_block (iblk4 V c 0 t) (iblk4 V c 1 t) (iblk4 V c 2 t) (V c main_v64) (V c main_arg7) (V c main_v65) j
    (((cfg4.win 3).blk t).view.emb j) (fun k => ?_) (fun k => ?_) ?_
  · show V c main_v64 (((cfg4.win 0).blk t).view.emb (ix2 (j 0) k)) = _
    refine congrArg (V c main_v64) ?_
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  · show V c main_arg7 (((cfg4.win 1).blk t).view.emb (ix2 k (j 1))) = _
    refine congrArg (V c main_arg7) ?_
    funext a; apply Fin.ext
    match a with
    | ⟨0, _⟩ => show win4_1.index t (0 : Fin 2) * 128 + 1 * k.val = k.val; omega
    | ⟨1, _⟩ => show win4_1.index t (1 : Fin 2) * 64 + 1 * (j 1).val = win4_3.index t (1 : Fin 2) * 64 + 1 * (j 1).val; omega
  · show V c main_v65 (((cfg4.win 2).blk t).view.emb (ix2 (0 : Fin 1) (j 1))) = _
    refine congrArg (V c main_v65) ?_
    funext a; apply Fin.ext
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega

/-- An index of the output array is in point `t`'s block iff each coordinate is in the block's range on its axis. -/
theorem mem_block (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v66).slice (win4_3.rect t)).set ↔ _
  rw [View.set_slice_whole, Rect.mem_set_unit]
  exact Iff.rfl

/-- Row `r` of the output array lies in the block of point `r / 5000`. -/
theorem covered (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨-, -, -, -, -, -, e6, e7⟩ := blockIdx ⟨(i 0).val / 5000, ht⟩
  have e6' : win4_3.index ⟨(i 0).val / 5000, ht⟩ (0 : Fin 2) = (i 0).val / 5000 := e6
  refine ⟨⟨(i 0).val / 5000, ht⟩, flush4_3 _, ?_⟩
  rw [mem_block]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    omega
  | ⟨1, _⟩ =>
    show win4_3.index ⟨(i 0).val / 5000, ht⟩ (1 : Fin 2) * 64 ≤ (i 1).val
      ∧ (i 1).val < win4_3.index ⟨(i 0).val / 5000, ht⟩ (1 : Fin 2) * 64 + 64
    omega

/-- After the launch the output array is the linear layer of the arrays as the launch finds them. -/
theorem final (c : Dev nD) :
    (dat4 V c).arrAt 3 cfg4.N
      = lin (M := 100000) (K := 128) (N := 64) (V c main_v64) (V c main_arg7) (rowVec (V c main_v65)) :=
  (dat4 V c).arrAt_eq_of_cover 3 _ (fun t _ => flushed_eq V c t) covered

end Cert.KernelIdeal.Hand.Launch4

end
-- ==== Proof.RefLin.lean ====
/-
  The reference program's three linear layers, on the extended reals: a product plus a bias vector broadcast to a row
  and then down the rows is the whole-array linear layer `lin` of its three operands.
-/
import proofs.«174604_j41987600285801_1_alg».proof.Proof.Gen.ReferenceIdeal.Read
import proofs.«174604_j41987600285801_1_alg».proof.Proof.LibProductRows
import proofs.«174604_j41987600285801_1_alg».proof.Proof.LibPairNorm
import Idealize.ShloMosaic.Lib.IdealHost

set_option maxRecDepth 16384

noncomputable section

namespace Cert.ReferenceIdeal.Hand

open Cert.ReferenceIdeal Cert.ReferenceIdeal.Read Idealize.ShloMosaic Idealize.ShloMosaic.ValueIdx
open Cert.Lib.BiasDot Cert.Lib.RowLayers Cert.Lib.ProductRows Cert.Lib.PairNorm

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal))

/-! ## The three linear layers -/

theorem lin_first : val_main_v7 (F := Ideal) x0 x3 x4 = lin (M := 100000) (K := 128) (N := 128) x0 x3 x4 := by
  unfold val_main_v7 val_main_v4 val_main_v6 val_main_v5
  exact host_lin dot_S100000x128_S128x128_S100000x128_1_0_0_1_n_n rfl x0 x3 x4 _ _

theorem lin_second : val_main_v43 (F := Ideal) x0 x1 x2 x3 x4 x5 x6
    = lin (M := 100000) (K := 128) (N := 128) (val_main_v39 (F := Ideal) x0 x1 x2 x3 x4) x5 x6 := by
  unfold val_main_v43 val_main_v40 val_main_v42 val_main_v41
  exact host_lin dot_S100000x128_S128x128_S100000x128_1_0_0_1_n_n rfl _ x5 x6 _ _

theorem lin_third : val_main_v78 (F := Ideal) x0 x1 x2 x3 x4 x5 x6 x7 x8
    = lin (M := 100000) (K := 128) (N := 64) (val_main_v74 (F := Ideal) x0 x1 x2 x3 x4 x5 x6) x7 x8 := by
  unfold val_main_v78 val_main_v75 val_main_v77 val_main_v76
  exact host_lin dot_S100000x128_S128x64_S100000x64_1_0_0_1_n_n rfl _ x7 x8 _ _

end Cert.ReferenceIdeal.Hand

end
-- ==== Proof.RefNorm.lean ====
/-
  The root-mean-square row norms the reference divides by are never zero.

  Each is the square root of a positive real `eps` plus a mean of squares: the square of an extended real is not
  negative, nor is a sum of such squares from zero, nor that sum's quotient by the real 100000; so `eps` plus the mean is
  positive and its root is a positive real or `+inf`. Nothing is asked of the inputs.
-/
import proofs.«174604_j41987600285801_1_alg».proof.Proof.Gen.ReferenceIdeal.Read
import proofs.«174604_j41987600285801_1_alg».proof.Proof.LibProductRows
import proofs.«174604_j41987600285801_1_alg».proof.Proof.LibPairNorm
import Idealize.ShloMosaic.Lib.IdealHost

set_option maxRecDepth 16384

noncomputable section

namespace Cert.ReferenceIdeal.Hand

open Cert.ReferenceIdeal Cert.ReferenceIdeal.Read Idealize.ShloMosaic Idealize.ShloMosaic.ValueIdx
open Cert.Lib.BiasDot Cert.Lib.RowLayers Cert.Lib.ProductRows Cert.Lib.PairNorm

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal))

/-! ## The norms are not zero -/

/-- The sum of the squared centred entries is not negative. -/
theorem sq_sum_first_nonneg : 0 ≤ val_main_v29 (F := Ideal) x0 x1 x2 x3 x4 ix0 := by
  rw [val_main_v29_apply, val_main_cst_4_apply, Ideal.ofBits_def, Ideal.ofBits_zero_f32, zero_add]
  refine Finset.sum_nonneg fun j _ => ?_
  rw [val_main_v28_apply, val_main_cst_3_apply, Ideal.ofBits_def, Ideal.ofBits_zero_f32, zero_add]
  refine Finset.sum_nonneg fun k _ => ?_
  rw [val_main_v27_apply, Ideal.mulf_def]
  exact mul_self_nonneg _

theorem norm_first_ne_zero : val_main_v32 (F := Ideal) x0 x1 x2 x3 x4 ix0 ≠ 0 := by
  rw [val_main_v32_apply, val_main_v31_apply, val_main_v30_apply, val_main_cst_6_apply, val_main_cst_5_apply]
  simp only [Ideal.hostUnary_sqrt_def, Ideal.addf_def, Ideal.hostDivf_def, Ideal.ofBits_def]
  rw [count_word]
  exact norm_ne_zero eps_word_pos (div_nonneg (sq_sum_first_nonneg x0 x1 x2 x3 x4) (by norm_num))

/-- The sum of the squared centred entries is not negative. -/
theorem sq_sum_second_nonneg : 0 ≤ val_main_v65 (F := Ideal) x0 x1 x2 x3 x4 x5 x6 ix0 := by
  rw [val_main_v65_apply, val_main_cst_15_apply, Ideal.ofBits_def, Ideal.ofBits_zero_f32, zero_add]
  refine Finset.sum_nonneg fun j _ => ?_
  rw [val_main_v64_apply, val_main_cst_14_apply, Ideal.ofBits_def, Ideal.ofBits_zero_f32, zero_add]
  refine Finset.sum_nonneg fun k _ => ?_
  rw [val_main_v63_apply, Ideal.mulf_def]
  exact mul_self_nonneg _

theorem norm_second_ne_zero : val_main_v68 (F := Ideal) x0 x1 x2 x3 x4 x5 x6 ix0 ≠ 0 := by
  rw [val_main_v68_apply, val_main_v67_apply, val_main_v66_apply, val_main_cst_17_apply, val_main_cst_16_apply]
  simp only [Ideal.hostUnary_sqrt_def, Ideal.addf_def, Ideal.hostDivf_def, Ideal.ofBits_def]
  rw [count_word]
  exact norm_ne_zero eps_word_pos (div_nonneg (sq_sum_second_nonneg x0 x1 x2 x3 x4 x5 x6) (by norm_num))

end Cert.ReferenceIdeal.Hand

end
-- ==== Proof.RefPnr.lean ====
/-
  The reference program's two normalisation stages, on the extended reals.

  The reference multiplies the centred features by the word of 1.0 and DIVIDES by the norm; since the norm is not zero
  this is multiplying them by the norm's reciprocal, and the stage — with its positive part and its residual — is the
  normalisation step `pnr` with any 1 x 1 scale array that holds `1 / norm`.
-/
import proofs.«174604_j41987600285801_1_alg».proof.Proof.Gen.ReferenceIdeal.Read
import proofs.«174604_j41987600285801_1_alg».proof.Proof.LibProductRows
import proofs.«174604_j41987600285801_1_alg».proof.Proof.LibPairNorm
import Idealize.ShloMosaic.Lib.IdealHost
import proofs.«174604_j41987600285801_1_alg».proof.Proof.RefNorm

set_option maxRecDepth 16384

noncomputable section

namespace Cert.ReferenceIdeal.Hand

open Cert.ReferenceIdeal Cert.ReferenceIdeal.Read Idealize.ShloMosaic Idealize.ShloMosaic.ValueIdx
open Cert.Lib.BiasDot Cert.Lib.RowLayers Cert.Lib.ProductRows Cert.Lib.PairNorm

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal))

/-! ## The two normalisation steps -/

theorem row_index (i : S100000x128.Idx) : idx_main_v25 i = ix2 (0 : Fin 1) (i 1) := by
  funext a
  match a with
  | ⟨0, _⟩ => rfl
  | ⟨1, _⟩ => rfl

theorem row_index' (i : S100000x128.Idx) : idx_main_v61 i = ix2 (0 : Fin 1) (i 1) := by
  funext a
  match a with
  | ⟨0, _⟩ => rfl
  | ⟨1, _⟩ => rfl

/-- The first normalisation stage is `pnr` of the aggregated features, the row of their column means, a scale array
    holding the reciprocal of the norm, and the stage's residual. -/
theorem pnr_first (s : (⟨2, ![1, 1]⟩ : Shape).Idx → EReal)
    (hs : s (ix2 (0 : Fin 1) (0 : Fin 1))
      = Ideal.div (Ideal.ofBits .f32 0x3F800000#32) (val_main_v32 (F := Ideal) x0 x1 x2 x3 x4 ix0)) :
    val_main_v39 (F := Ideal) x0 x1 x2 x3 x4
      = pnr (M := 100000) (N := 128) (val_main_v20 (F := Ideal) x0 x1 x2 x3 x4) (val_main_v24 (F := Ideal) x0 x1 x2 x3 x4) s
          (val_main_v38 (F := Ideal)) := by
  funext i
  rw [pnr_apply, hs, val_main_v39_apply, val_main_v37_apply, val_main_v36_apply, val_main_v34_apply,
    val_main_v33_apply, val_main_cst_7_apply, val_main_v35_apply, val_main_v26_apply, val_main_v25_apply,
    val_main_call0_v0_apply, val_main_call0_cst_apply, row_index]
  simp only [Ideal.addf_def, Ideal.maximumf_def, Ideal.hostDivf_def, Ideal.mulf_def, Ideal.subf_def, Ideal.ofBits_def]
  rw [show idx_main_v35 i = ix0 from funext fun a => a.elim0, Ideal.ofBits_zero_f32, Ideal.ofBits_one_f32,
    div_eq_mul_recip _ _ (norm_first_ne_zero x0 x1 x2 x3 x4)]
  rfl

/-- The second normalisation stage is `pnr` of the aggregated features, the row of their column means, a scale array
    holding the reciprocal of the norm, and the stage's residual. -/
theorem pnr_second (s : (⟨2, ![1, 1]⟩ : Shape).Idx → EReal)
    (hs : s (ix2 (0 : Fin 1) (0 : Fin 1))
      = Ideal.div (Ideal.ofBits .f32 0x3F800000#32) (val_main_v68 (F := Ideal) x0 x1 x2 x3 x4 x5 x6 ix0)) :
    val_main_v74 (F := Ideal) x0 x1 x2 x3 x4 x5 x6
      = pnr (M := 100000) (N := 128) (val_main_v56 (F := Ideal) x0 x1 x2 x3 x4 x5 x6) (val_main_v60 (F := Ideal) x0 x1 x2 x3 x4 x5 x6) s
          (val_main_v39 (F := Ideal) x0 x1 x2 x3 x4) := by
  funext i
  rw [pnr_apply, hs, val_main_v74_apply, val_main_v73_apply, val_main_v72_apply, val_main_v70_apply,
    val_main_v69_apply, val_main_cst_18_apply, val_main_v71_apply, val_main_v62_apply, val_main_v61_apply,
    val_main_call1_v0_apply, val_main_call1_cst_apply, row_index']
  simp only [Ideal.addf_def, Ideal.maximumf_def, Ideal.hostDivf_def, Ideal.mulf_def, Ideal.subf_def, Ideal.ofBits_def]
  rw [show idx_main_v71 i = ix0 from funext fun a => a.elim0, Ideal.ofBits_zero_f32, Ideal.ofBits_one_f32,
    div_eq_mul_recip _ _ (norm_second_ne_zero x0 x1 x2 x3 x4 x5 x6)]
  rfl

end Cert.ReferenceIdeal.Hand

end
-- ==== Proof.KernelValue.lean ====
/-
  The idealized kernel program's result is the reference's, stage by stage.

  The program's memory is followed through its six stretches of host operations and five launches. At each point the
  buffer a later stage reads is shown to hold the reference program's value of the corresponding stage, as a function
  of the nine arguments:

  * a launch of the linear-layer body leaves the linear layer of the arrays it finds, and the reference's product plus
    broadcast bias is that same layer;
  * the host operations between the launches — the gather of rows by source node, the weighting, the scatter-add by
    destination node, the column means, the mean squared row norm, its root — are the reference's own, applied to equal
    operands, so their results are equal without being opened;
  * a launch of the normalisation body leaves `max ((h - mean) * s, 0) + residual` with `s = 1 / norm`, and the
    reference's stage, which divides by the norm instead, is the same function because the norm is never zero;
  * the last stretch gathers, weights and scatter-adds the last linear layer's rows: the reference's result.
-/
import proofs.«174604_j41987600285801_1_alg».proof.Proof.Carry
import proofs.«174604_j41987600285801_1_alg».proof.Proof.Launch0
import proofs.«174604_j41987600285801_1_alg».proof.Proof.Launch1
import proofs.«174604_j41987600285801_1_alg».proof.Proof.Launch2
import proofs.«174604_j41987600285801_1_alg».proof.Proof.Launch3
import proofs.«174604_j41987600285801_1_alg».proof.Proof.Launch4
import proofs.«174604_j41987600285801_1_alg».proof.Proof.RefLin
import proofs.«174604_j41987600285801_1_alg».proof.Proof.RefPnr

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx
open Cert.Lib.BiasDot Cert.Lib.RowLayers Cert.Lib.PairNorm

variable (m : (ℓ : Loc nD τ sig) → Buf (Elt Ideal) ℓ) (ρ : Dev nD → PrngReg) (c : Dev nD)

/-! ## The first layer -/

/-- After the first launch its output array is the reference's first linear layer. -/
theorem at2_v6 : W2 m ρ c (Proc.devRef .tc main_v6)
    = Cert.ReferenceIdeal.Read.val_main_v7 (F := Ideal) (m ((c : Thread nD τ).loc main_arg0)) (m ((c : Thread nD τ).loc main_arg3)) (m ((c : Thread nD τ).loc main_arg4)) := by
  refine (W2_arr m ρ c 3).trans ((Launch0.final (V1 m ρ) c).trans ?_)
  rw [Cert.ReferenceIdeal.Hand.lin_first]
  show lin (M := 100000) (K := 128) (N := 128) (W1 m ρ c (Proc.devRef .tc main_arg0))
      (W1 m ρ c (Proc.devRef .tc main_arg3)) (rowVec (W1 m ρ c (Proc.devRef .tc main_v5))) = _
  rw [at1_main_arg0 m ρ c, at1_main_arg3 m ρ c, at1_main_v5 m ρ c, rowVec_reshape]

/-- The aggregation over the edges of the first layer's rows. -/
theorem at3_v19 : W3 m ρ c (Proc.devRef .tc main_v19)
    = Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W3, hostOps1]
  after_results_simp
  rw [at2_v6 m ρ c, at2_main_v3 m ρ c, at2_main_v1 m ρ c, at2_main_arg2 m ρ c]
  rfl

/-- The row of column means of the aggregated features. -/
theorem at3_v23 : W3 m ρ c (Proc.devRef .tc main_v23)
    = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W3, hostOps1]
  after_results_simp
  rw [at2_v6 m ρ c, at2_main_v3 m ρ c, at2_main_v1 m ρ c, at2_main_arg2 m ρ c]
  rfl

/-- The scale: one over the root-mean-square row norm, as a 1 x 1 array. -/
theorem at3_v33 : W3 m ρ c (Proc.devRef .tc main_v33)
    = shapeCast S1x1 (Host.divf (constant (F := Ideal) S_ .f32 0x3F800000#32) (Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)))) shapeCasts_S_S1x1 := by
  dsimp only [W3, hostOps1]
  after_results_simp
  rw [at2_v6 m ρ c, at2_main_v3 m ρ c, at2_main_v1 m ρ c, at2_main_arg2 m ρ c]
  rfl

/-- The scale array's one entry is the reciprocal of the norm. -/
theorem at3_scale : W3 m ρ c (Proc.devRef .tc main_v33) (ix2 (0 : Fin 1) (0 : Fin 1))
    = Ideal.div (Ideal.ofBits .f32 0x3F800000#32) (Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ix0) := by
  rw [at3_v33 m ρ c]
  exact congrArg (fun k => Ideal.div (Ideal.ofBits .f32 0x3F800000#32) (Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) k))
    (funext fun a => a.elim0)

/-- After the second launch its output array is the reference's first normalisation stage. -/
theorem at4_v34 : W4 m ρ c (Proc.devRef .tc main_v34)
    = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 4).trans ((Launch1.final (V3 m ρ) c).trans ?_)
  show pnr (M := 100000) (N := 128) (W3 m ρ c (Proc.devRef .tc main_v19)) (W3 m ρ c (Proc.devRef .tc main_v23))
      (W3 m ρ c (Proc.devRef .tc main_v33)) (W3 m ρ c (Proc.devRef .tc main_v4)) = _
  rw [at3_v19 m ρ c, at3_v23 m ρ c, at3_main_v4 m ρ c]
  exact (Cert.ReferenceIdeal.Hand.pnr_first _ _ _ _ _ (W3 m ρ c (Proc.devRef .tc main_v33)) (at3_scale m ρ c)).symm

/-! ## The second layer -/

theorem keep5_main_v34 : W5 m ρ c (Proc.devRef .tc main_v34) = W4 m ρ c (Proc.devRef .tc main_v34) := by
  dsimp only [W5, hostOps2]
  after_results_simp

/-- The second layer's bias as a 1 x 128 row. -/
theorem at5_v35 : W5 m ρ c (Proc.devRef .tc main_v35)
    = shapeCast S1x128 (m ((c : Thread nD τ).loc main_arg6)) shapeCasts_S128_S1x128 := by
  dsimp only [W5, hostOps2]
  after_results_simp
  rw [at4_main_arg6 m ρ c]
  rfl

/-- After the third launch its output array is the reference's second linear layer. -/
theorem at6_v36 : W6 m ρ c (Proc.devRef .tc main_v36)
    = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ((Launch2.final (V5 m ρ) c).trans ?_)
  rw [Cert.ReferenceIdeal.Hand.lin_second]
  show lin (M := 100000) (K := 128) (N := 128) (W5 m ρ c (Proc.devRef .tc main_v34))
      (W5 m ρ c (Proc.devRef .tc main_arg5)) (rowVec (W5 m ρ c (Proc.devRef .tc main_v35))) = _
  rw [keep5_main_v34 m ρ c, at4_v34 m ρ c, at5_main_arg5 m ρ c, at5_v35 m ρ c, rowVec_reshape]

theorem at7_v34 : W7 m ρ c (Proc.devRef .tc main_v34) = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h7 : W7 m ρ c (Proc.devRef .tc main_v34) = W6 m ρ c (Proc.devRef .tc main_v34) := by
    dsimp only [W7, hostOps3]
    after_results_simp
  have h6 : W6 m ρ c (Proc.devRef .tc main_v34) = W5 m ρ c (Proc.devRef .tc main_v34) :=
    (W6_arr m ρ c 0).trans (((dat2 (V5 m ρ) c).arrAt_in 0 rfl _).trans (A_eq2 (V5 m ρ) c 0))
  exact h7.trans (h6.trans ((keep5_main_v34 m ρ c).trans (at4_v34 m ρ c)))

/-- The aggregation over the edges of the second layer's rows. -/
theorem at7_v49 : W7 m ρ c (Proc.devRef .tc main_v49)
    = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W7, hostOps3]
  after_results_simp
  rw [at6_v36 m ρ c, at6_main_v3 m ρ c, at6_main_v1 m ρ c, at6_main_arg2 m ρ c]
  rfl

/-- The row of column means of the second aggregation. -/
theorem at7_v53 : W7 m ρ c (Proc.devRef .tc main_v53)
    = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W7, hostOps3]
  after_results_simp
  rw [at6_v36 m ρ c, at6_main_v3 m ρ c, at6_main_v1 m ρ c, at6_main_arg2 m ρ c]
  rfl

/-- The second scale, as a 1 x 1 array. -/
theorem at7_v63 : W7 m ρ c (Proc.devRef .tc main_v63)
    = shapeCast S1x1 (Host.divf (constant (F := Ideal) S_ .f32 0x3F800000#32) (Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))) shapeCasts_S_S1x1 := by
  dsimp only [W7, hostOps3]
  after_results_simp
  rw [at6_v36 m ρ c, at6_main_v3 m ρ c, at6_main_v1 m ρ c, at6_main_arg2 m ρ c]
  rfl

/-- The scale array's one entry is the reciprocal of the norm. -/
theorem at7_scale : W7 m ρ c (Proc.devRef .tc main_v63) (ix2 (0 : Fin 1) (0 : Fin 1))
    = Ideal.div (Ideal.ofBits .f32 0x3F800000#32) (Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ix0) := by
  rw [at7_v63 m ρ c]
  exact congrArg (fun k => Ideal.div (Ideal.ofBits .f32 0x3F800000#32) (Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k))
    (funext fun a => a.elim0)

/-- After the fourth launch its output array is the reference's second normalisation stage. -/
theorem at8_v64 : W8 m ρ c (Proc.devRef .tc main_v64)
    = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ((Launch3.final (V7 m ρ) c).trans ?_)
  show pnr (M := 100000) (N := 128) (W7 m ρ c (Proc.devRef .tc main_v49)) (W7 m ρ c (Proc.devRef .tc main_v53))
      (W7 m ρ c (Proc.devRef .tc main_v63)) (W7 m ρ c (Proc.devRef .tc main_v34)) = _
  rw [at7_v49 m ρ c, at7_v53 m ρ c, at7_v34 m ρ c]
  exact (Cert.ReferenceIdeal.Hand.pnr_second _ _ _ _ _ _ _ (W7 m ρ c (Proc.devRef .tc main_v63)) (at7_scale m ρ c)).symm

/-! ## The output layer -/

theorem keep9_main_v64 : W9 m ρ c (Proc.devRef .tc main_v64) = W8 m ρ c (Proc.devRef .tc main_v64) := by
  dsimp only [W9, hostOps4]
  after_results_simp

/-- The output layer's bias as a 1 x 64 row. -/
theorem at9_v65 : W9 m ρ c (Proc.devRef .tc main_v65)
    = shapeCast S1x64 (m ((c : Thread nD τ).loc main_arg8)) shapeCasts_S64_S1x64 := by
  dsimp only [W9, hostOps4]
  after_results_simp
  rw [at8_main_arg8 m ρ c]
  rfl

/-- After the fifth launch its output array is the reference's last linear layer. -/
theorem at10_v66 : W10 m ρ c (Proc.devRef .tc main_v66)
    = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 3).trans ((Launch4.final (V9 m ρ) c).trans ?_)
  rw [Cert.ReferenceIdeal.Hand.lin_third]
  show lin (M := 100000) (K := 128) (N := 64) (W9 m ρ c (Proc.devRef .tc main_v64))
      (W9 m ρ c (Proc.devRef .tc main_arg7)) (rowVec (W9 m ρ c (Proc.devRef .tc main_v65))) = _
  rw [keep9_main_v64 m ρ c, at8_v64 m ρ c, at9_main_arg7 m ρ c, at9_v65 m ρ c, rowVec_reshape]

/-- THE RESULT: the last aggregation over the edges is the reference's result, as a function of the nine arguments. -/
theorem result_eq : W11 m ρ c (Proc.devRef .tc main_v79)
    = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W11, hostOps5]
  after_results_simp
  rw [at10_v66 m ρ c, at10_main_v3 m ρ c, at10_main_v1 m ρ c, at10_main_arg2 m ρ c]
  rfl

end Cert.KernelIdeal.Hand

end
-- ==== Proof.lean ====
/-
  A two-layer graph network with pair normalisation, computed by five kernel launches among host operations, against
  its plain reference: equal results on the extended reals.

  Both programs compute, for node features `x`, an edge table and edge weights:
  `h = x W + b`; `agg = segment_sum (w * h[src], dst)`; the centred `agg - colmean agg`, the root-mean-square row norm
  `r = sqrt (eps + mean_rows (sum_cols (centred^2)))`; `relu (centred / r) + residual` — twice, the second time with the
  first layer's output as input and as residual —, and a last linear layer and aggregation. The kernel program runs the
  three linear layers and the two normalisation steps as launches over blocks of 5000 rows and leaves the gathers,
  scatter-adds and statistics to the host; its normalisation step multiplies by `1 / r` where the reference divides by
  `r` (after a product with 1.0).

  * Each launch's output array is one whole-array function of the arrays it finds (modules `Launch0` … `Launch4`):
    an entry of a linear layer or of the normalisation step depends on one row of the blocked operands, and the twenty
    blocks cover the array.
  * The program's memory is then followed through all eleven segments (`KernelValue`): each buffer a later stage reads
    holds the reference's value of the corresponding stage; the host operations are the reference's own and are never
    opened.
  * The one place the programs differ is joined by `d * (1 / r) = (1 * d) / r` for `r ≠ 0`, and `r` is never zero because
    it is the root of a positive `eps` plus a non-negative mean (`RefNorm`, `RefPnr`). No finiteness of the inputs is
    used: the precondition is not opened.
  * The word-level kernel and the idealized kernel end with their arguments unchanged by the generated frame
    certificates; the reference by its generated run. The ideal pass rewrote nothing, so `preserves` is trivial.
-/
import proofs.«174604_j41987600285801_1_alg».proof.Defs
import proofs.«174604_j41987600285801_1_alg».proof.Proof.Gen.Kernel
import proofs.«174604_j41987600285801_1_alg».proof.Proof.Gen.Kernel.Frame
import proofs.«174604_j41987600285801_1_alg».proof.Proof.Gen.KernelIdeal
import proofs.«174604_j41987600285801_1_alg».proof.Proof.Gen.KernelIdeal.Frame
import proofs.«174604_j41987600285801_1_alg».proof.Proof.Gen.ReferenceIdeal
import proofs.«174604_j41987600285801_1_alg».proof.Proof.Gen.Pre_finite_inputs
import proofs.«174604_j41987600285801_1_alg».proof.Proof.Gen.ReferenceIdeal.Run
import proofs.«174604_j41987600285801_1_alg».proof.Proof.Gen.ReferenceIdeal.Read
import proofs.«174604_j41987600285801_1_alg».proof.Proof.KernelRun
import proofs.«174604_j41987600285801_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's last stage of the (agreeing) arguments in their result buffers. -/
theorem algebraic : Cert.algebraic_KernelIdeal_ReferenceIdeal := by
  intro m ρ m' ρ' _ hagree
  refine ⟨fun c => Cert.ReferenceIdeal.Read.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Hand.result_eq m ρ c), (h c).2⟩)
      (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v91_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
